-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S1024x512 .f32) (main_arg5 : FVec F S512 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16384x512 .f32) (main_arg1 : FVec F S16384x512 .f32) (main_arg2 : FVec F S1024x1024 .f32) (main_arg3 : FVec F S1024 .f32) (main_arg4 : FVec F S1024x512 .f32) (main_arg5 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S16384x512 : Shape := ⟨2, ![16384, 512]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S1x1024 : Shape := ⟨2, ![1, 1024]⟩
abbrev S1x512 : Shape := ⟨2, ![1, 512]⟩
abbrev S512x1024 : Shape := ⟨2, ![512, 1024]⟩
abbrev S512x512 : Shape := ⟨2, ![512, 512]⟩

abbrev nBuf : Space → Nat
  | .hbm => 12
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S1024x1024, .bf16⟩
  | .hbm, ⟨7, _⟩ => ⟨S1024x512, .bf16⟩
  | .hbm, ⟨8, _⟩ => ⟨S1x1024, .f32⟩
  | .hbm, ⟨9, _⟩ => ⟨S1x512, .f32⟩
  | .hbm, ⟨10, _⟩ => ⟨S16384x512, .f32⟩
  | .hbm, ⟨11, _⟩ => ⟨S16384x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1x1024, .f32⟩
  | .local _ .vmem, ⟨6, _⟩ => ⟨S1024x512, .bf16⟩
  | .local _ .vmem, ⟨7, _⟩ => ⟨S1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S1024_S1x1024 : S1024.ShapeCasts S1x1024
  shapeCasts_S512_S1x512 : S512.ShapeCasts S1x512
  inb_S1024x512_S1024x512_0_0 : ∀ a, (![0, 0] : Fin 2 → Nat) a + S1024x512.size a ≤ S1024x512.size a
  h_S1024x512 : 0 < S1024x512.numel
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  inb_S1024x1024_S512x1024_512_0 : ∀ a, (![512, 0] : Fin 2 → Nat) a + S512x1024.size a ≤ S1024x1024.size a
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x512 : S1024x1024.Slices ![0, 0] S1024x512
  slices_S1024x1024_o0_512_S1024x512 : S1024x1024.Slices ![0, 512] S1024x512
  inb_S1024x512_S512x512_0_0 : ∀ a, (![0, 0] : Fin 2 → Nat) a + S512x512.size a ≤ S1024x512.size a
  h_S512x512 : 0 < S512x512.numel
  shapeCasts_S512x512_S512x512 : S512x512.ShapeCasts S512x512
  inb_S1024x512_S512x512_512_0 : ∀ a, (![512, 0] : Fin 2 → Nat) a + S512x512.size a ≤ S1024x512.size a
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x1024_S1024x1024_1_0_0_1_n_n_wf : DotDims.WF S1024x512 S512x1024 S1024x1024 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .f32 = 32 ∨ (Rect.block (s := S16384x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S16384x512.size a
  hwx0_6 : ∀ i : grid0.Coords, EltTy.bits .f32 = 32 ∨ (Rect.block (s := S16384x512) S1024x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S16384x512.size a
  hwx0_7 : ∀ i : grid0.Coords, EltTy.bits .f32 = 32 ∨ (Rect.block (s := S16384x512) S1024x512.size (cc0_transform_7 i) (hinb0_7 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S1024x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S1024x1024 : Shape := ⟨2, ![1024, 1024]⟩
abbrev S1024 : Shape := ⟨1, ![1024]⟩
abbrev S1024x512 : Shape := ⟨2, ![1024, 512]⟩
abbrev S512 : Shape := ⟨1, ![512]⟩
abbrev S16384x1024 : Shape := ⟨2, ![16384, 1024]⟩
abbrev S1x1024 : Shape := ⟨2, ![1, 1024]⟩
abbrev S_ : Shape := ⟨0, ![]⟩
abbrev S1x512 : Shape := ⟨2, ![1, 512]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S1024x1024, .f32⟩
  | .hbm, ⟨3, _⟩ => ⟨S1024, .f32⟩
  | .hbm, ⟨4, _⟩ => ⟨S1024x512, .f32⟩
  | .hbm, ⟨5, _⟩ => ⟨S512, .f32⟩
  | .hbm, ⟨6, _⟩ => ⟨S16384x1024, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x512, .f32⟩
  | .hbm, ⟨12, _⟩ => ⟨S16384x512, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S_, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S16384x1024, .f32⟩
  | .hbm, ⟨29, _⟩ => ⟨S16384x512, .f32⟩
  | .hbm, ⟨30, _⟩ => ⟨S1x512, .f32⟩
  | .hbm, ⟨31, _⟩ => ⟨S16384x512, .f32⟩
  | .hbm, ⟨32, _⟩ => ⟨S16384x512, .f32⟩
  | .hbm, ⟨33, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S16384x1024_S16384x512_0_0 : S16384x1024.Slices ![0, 0] S16384x512
  slices_S16384x1024_S16384x512_0_512 : S16384x1024.Slices ![0, 512] S16384x512
  bcast_S_S16384x512 : S_.BroadcastsInDim S16384x512 (![] : Fin 0 → Fin S16384x512.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x1024_S1024x1024_S16384x1024_1_0_0_1_n_n_wf : DotDims.WF S16384x1024 S1024x1024 S16384x1024 [1] [0] [0] [1] [] []
  dot_S16384x1024_S1024x512_S16384x512_1_0_0_1_n_n_wf : DotDims.WF S16384x1024 S1024x512 S16384x512 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf

class Facts : Prop extends Facts₀ where

variable [Facts]
-- ==== Proof.Spec.lean ====
/-
  The cell's mathematics, with no program in sight.  One row of the cell is computed from a row `x` of the input and a
  row `h` of the state, both of length 512, a weight of 1024 rows whose first 512 rows meet `x` and whose last 512 rows
  meet `h`, and a bias:

    lin(c)  = Σ_{k<512} x(k)·W(k,c) + Σ_{k<512} h(k)·W(512+k,c) + b(c)            (c < 1024)
    h'(j)   = σ(lin(512+j))·h(j) + (1 − σ(lin(512+j)))·tanh(lin(j))               (j < 512)
    out(j)  = tanh( Σ_{k<512} x(k)·U(k,j) + Σ_{k<512} h'(k)·U(512+k,j) + d(j) )

  over the extended reals, σ the logistic function.  `affine` is the contraction of two half rows with two half columns
  plus a bias, `gate` the convex mix; `hnewRow` and `outRow` are the two results for ONE row, stated on plain functions of
  `Fin 512` and `Fin 1024` (the weight given as its upper and lower halves), so that a block of rows and the whole array
  use the same words.  A sum over 1024 positions is the sum over its two halves (`sum_halves`): this is the one law that
  joins a contraction of the concatenated row `[x | h]` with the two half contractions, and it needs no finiteness
  (addition of extended reals is commutative and associative).
-/
import Idealize.ShloMosaic.PureOps.Ideal
import Idealize.ShloMosaic.PureOps.Ideal.Laws
import Idealize.ShloMosaic.Lib.ValueIdx

noncomputable section

open scoped BigOperators

namespace Cert.Dru

open Idealize.ShloMosaic Idealize.ShloMosaic.ValueIdx

/-- Position `k` of the first half of a row of 1024. -/
abbrev lo (k : Fin 512) : Fin 1024 := ⟨k.val, by omega⟩
/-- Position `k` of the second half of a row of 1024. -/
abbrev hi (k : Fin 512) : Fin 1024 := ⟨512 + k.val, by omega⟩

/-- A sum over 1024 positions is the sum over the first 512 plus the sum over the last 512. -/
theorem sum_halves {M : Type*} [AddCommMonoid M] (f : Fin 1024 → M) :
    ∑ k : Fin 1024, f k = (∑ k : Fin 512, f (lo k)) + ∑ k : Fin 512, f (hi k) :=
  Fin.sum_univ_add (a := 512) (b := 512) f

/-- The literal one of both programs. -/
abbrev one : EReal := Ideal.ofBits .f32 0x3F800000#32

/-- It is the number one. -/
theorem one_eq : one = 1 := IdealRules.sign_bit.ideal_onePat .f32

/-- Two half rows against two half columns, plus a bias. -/
def affine (xr hr wlo whi : Fin 512 → EReal) (b : EReal) : EReal :=
  (∑ k : Fin 512, xr k * wlo k) + (∑ k : Fin 512, hr k * whi k) + b

/-- The mix of the old state `hv` and the candidate `tanh ll` by the gate `σ(lf)`. -/
def gate (lf ll hv : EReal) : EReal :=
  Ideal.logistic lf * hv + (one - Ideal.logistic lf) * Ideal.tanh ll

/-- The logistic function written out with the literal one: `1 / (1 + e^(-x))`. -/
theorem logistic_spelt (x : EReal) : Ideal.div one (one + Ideal.exp (-x)) = Ideal.logistic x := by
  rw [one_eq]; rfl

/-! ## One row -/

/-- The new state of one row at column `j`: the forget gate reads the second half of the pre-activation's columns, the
    candidate the first half. `wlo k c` is the weight at row `k`, `whi k c` the weight at row `512 + k`. -/
def hnewRow (xr hr : Fin 512 → EReal) (wlo whi : Fin 512 → Fin 1024 → EReal) (b : Fin 1024 → EReal) (j : Fin 512) : EReal :=
  gate (affine xr hr (fun k => wlo k (hi j)) (fun k => whi k (hi j)) (b (hi j)))
    (affine xr hr (fun k => wlo k (lo j)) (fun k => whi k (lo j)) (b (lo j))) (hr j)

/-- The output of one row at column `j`: the second contraction meets the NEW state. -/
def outRow (xr hr : Fin 512 → EReal) (wlo whi : Fin 512 → Fin 1024 → EReal) (b : Fin 1024 → EReal)
    (ulo uhi : Fin 512 → Fin 512 → EReal) (d : Fin 512 → EReal) (j : Fin 512) : EReal :=
  Ideal.tanh (affine xr (hnewRow xr hr wlo whi b) (fun k => ulo k j) (fun k => uhi k j) (d j))

/-! ## The whole arrays -/

/-- The new state as an array: row `i 0` of `x` and `h`, the weight's two halves, the bias. -/
def hnewG (x h : (⟨2, ![16384, 512]⟩ : Shape).Idx → EReal) (W : (⟨2, ![1024, 1024]⟩ : Shape).Idx → EReal)
    (b : (⟨1, ![1024]⟩ : Shape).Idx → EReal) : (⟨2, ![16384, 512]⟩ : Shape).Idx → EReal :=
  fun i => hnewRow (fun k => x (ix2 (i 0) k)) (fun k => h (ix2 (i 0) k)) (fun k c => W (ix2 (lo k) c))
    (fun k c => W (ix2 (hi k) c)) (fun c => b (ix1 c)) (i 1)

/-- The output as an array. -/
def outG (x h : (⟨2, ![16384, 512]⟩ : Shape).Idx → EReal) (W : (⟨2, ![1024, 1024]⟩ : Shape).Idx → EReal)
    (b : (⟨1, ![1024]⟩ : Shape).Idx → EReal) (U : (⟨2, ![1024, 512]⟩ : Shape).Idx → EReal)
    (d : (⟨1, ![512]⟩ : Shape).Idx → EReal) : (⟨2, ![16384, 512]⟩ : Shape).Idx → EReal :=
  fun i => outRow (fun k => x (ix2 (i 0) k)) (fun k => h (ix2 (i 0) k)) (fun k c => W (ix2 (lo k) c))
    (fun k c => W (ix2 (hi k) c)) (fun c => b (ix1 c)) (fun k j => U (ix2 (lo k) j)) (fun k j => U (ix2 (hi k) j))
    (fun j => d (ix1 j)) (i 1)

end Cert.Dru

end
-- ==== Proof.RefValue.lean ====
/-
  The reference is the specification.  The reference program joins the input row and the state row into one row of
  1024, contracts it with the weight, adds the bias, cuts the result into its two halves, and mixes the old state with
  the candidate by the logistic gate; it then joins the input row with the NEW state and does the same contraction with
  the second weight.  Read one element at a time, a contraction of a joined row `[x | h]` over 1024 positions is the sum
  over the first 512 positions (which meet `x`) plus the sum over the last 512 (which meet `h`): that is `affine`, and the
  rest is the cell's own arithmetic, element by element.
-/
import proofs.«165214_j49134425866913_2_alg».proof.Proof.Gen.ReferenceIdeal.Read
import proofs.«165214_j49134425866913_2_alg».proof.Proof.Spec
import Idealize.ShloMosaic.Lib.Pipeline.Value
import Idealize.ShloMosaic.Lib.ValueIdx
import Idealize.ShloMosaic.PureOps.Ideal.Laws

noncomputable section
open scoped BigOperators
namespace Cert.ReferenceIdeal.RefValue
open Cert.ReferenceIdeal Cert.ReferenceIdeal.Gen Cert.ReferenceIdeal.Read Idealize.ShloMosaic Idealize.ShloMosaic.ValueIdx Cert.Dru

/-! ## A joined row read at a column -/

/-- Two arrays of 512 columns joined along the columns: column `k` of the first half is the first array's column `k`. -/
theorem concat_lo {α : Type} (a b : S16384x512.Idx → α) (r : Fin 16384) (k : Fin 512) :
    concatenate S16384x1024 1 [⟨S16384x512, a⟩, ⟨S16384x512, b⟩] Facts₀.concatenates_S16384x512_S16384x512_S16384x1024_d1
      (ix2 r (lo k)) = a (ix2 r k) :=
  concatenate_pair_apply_left (t := S16384x1024) (s₁ := S16384x512) (s₂ := S16384x512) 1 a b
    Facts₀.concatenates_S16384x512_S16384x512_S16384x1024_d1 (ix2 r (lo k)) rfl (ix2 r k) (fun c => by
    match c with
    | ⟨0, _⟩ => rfl
    | ⟨1, _⟩ => rfl)

/-- Two arrays of 512 columns joined along the columns: column `512 + k` is the second array's column `k`. -/
theorem concat_hi {α : Type} (a b : S16384x512.Idx → α) (r : Fin 16384) (k : Fin 512) :
    concatenate S16384x1024 1 [⟨S16384x512, a⟩, ⟨S16384x512, b⟩] Facts₀.concatenates_S16384x512_S16384x512_S16384x1024_d1
      (ix2 r (hi k)) = b (ix2 r k) :=
  concatenate_pair_apply_right (t := S16384x1024) (s₁ := S16384x512) (s₂ := S16384x512) 1 a b
    Facts₀.concatenates_S16384x512_S16384x512_S16384x1024_d1 (ix2 r (hi k)) rfl rfl (ix2 r k)
    (fun c hc => by
      match c with
      | ⟨0, _⟩ => rfl
      | ⟨1, _⟩ => exact absurd rfl hc)
    (by show k.val + 512 = 512 + k.val; omega)

/-! ## The pre-activation: the joined row against the weight, plus the bias -/

/-- The contraction's left index: row `r`, position `k` of the joined row. -/
theorem lidx1_eq (r : Fin 16384) (c k : Fin 1024) : lidx_main_v1 (ix2 r c) k = ix2 r k := by
  funext a
  match a with
  | ⟨0, _⟩ => rfl
  | ⟨1, _⟩ => rfl

/-- The contraction's right index: row `k` of the weight, column `c`. -/
theorem ridx1_eq (r : Fin 16384) (c k : Fin 1024) : ridx_main_v1 (ix2 r c) k = ix2 k c := by
  funext a
  match a with
  | ⟨0, _⟩ => rfl
  | ⟨1, _⟩ => rfl

/-- The bias, broadcast over the rows, is read at the column. -/
theorem bias1_idx (r : Fin 16384) (c : Fin 1024) : idx_main_v2 (idx_main_v3 (ix2 r c)) = ix1 c := by
  funext a
  match a with
  | ⟨0, _⟩ => rfl

/-- Element `(r, c)` of the pre-activation is the affine form of row `r` of the input and of the state against
    column `c` of the weight's two halves, plus the bias at `c`. -/
theorem ref_lin (x0 x1 : (⟨S16384x512, .f32⟩ : BufTy).Contents (Elt Ideal)) (x2 : (⟨S1024x1024, .f32⟩ : BufTy).Contents (Elt Ideal))
    (x3 : (⟨S1024, .f32⟩ : BufTy).Contents (Elt Ideal)) (r : Fin 16384) (c : Fin 1024) :
    val_main_v4 (F := Ideal) x0 x1 x2 x3 (ix2 r c)
      = affine (fun k => x0 (ix2 r k)) (fun k => x1 (ix2 r k)) (fun k => x2 (ix2 (lo k) c)) (fun k => x2 (ix2 (hi k) c))
          (x3 (ix1 c)) := by
  rw [val_main_v4_apply, val_main_v1_apply, val_main_v3_apply, val_main_v2_apply, bias1_idx, Ideal.addf_def, sum_halves]
  unfold affine
  refine congrArg₂ (· + ·) (congrArg₂ (· + ·) (Finset.sum_congr rfl fun k _ => ?_) (Finset.sum_congr rfl fun k _ => ?_)) rfl
  · rw [lidx1_eq, ridx1_eq]
    exact congrArg (· * x2 (ix2 (lo k) c)) (concat_lo x0 x1 r k)
  · rw [lidx1_eq, ridx1_eq]
    exact congrArg (· * x2 (ix2 (hi k) c)) (concat_hi x0 x1 r k)

/-! ## The gate and the new state -/

/-- The first slice reads the pre-activation at the first half's column. -/
theorem idx5_eq (r : Fin 16384) (j : Fin 512) : idx_main_v5 (ix2 r j) = ix2 r (lo j) := by
  funext a
  match a with
  | ⟨0, _⟩ => rfl
  | ⟨1, _⟩ => rfl

/-- The second slice reads the pre-activation at the second half's column. -/
theorem idx6_eq (r : Fin 16384) (j : Fin 512) : idx_main_v6 (ix2 r j) = ix2 r (hi j) := by
  funext a
  match a with
  | ⟨0, _⟩ => rfl
  | ⟨1, _⟩ => rfl

/-- The forget gate at `(r, j)`: `1 / (1 + e^(-l))` with `l` the pre-activation at column `512 + j`, which is the
    logistic function of `l`. -/
theorem ref_sigma (x0 x1 : (⟨S16384x512, .f32⟩ : BufTy).Contents (Elt Ideal)) (x2 : (⟨S1024x1024, .f32⟩ : BufTy).Contents (Elt Ideal))
    (x3 : (⟨S1024, .f32⟩ : BufTy).Contents (Elt Ideal)) (r : Fin 16384) (j : Fin 512) :
    val_main_v13 (F := Ideal) x0 x1 x2 x3 (ix2 r j)
      = Ideal.logistic (affine (fun k => x0 (ix2 r k)) (fun k => x1 (ix2 r k)) (fun k => x2 (ix2 (lo k) (hi j)))
          (fun k => x2 (ix2 (hi k) (hi j))) (x3 (ix1 (hi j)))) := by
  rw [val_main_v13_apply, val_main_v12_apply, val_main_cst_0_apply, val_main_v11_apply, val_main_v10_apply,
    val_main_cst_apply, val_main_v9_apply, val_main_v8_apply, val_main_v6_apply, idx6_eq, ref_lin]
  simp only [Ideal.hostDivf_def, Ideal.ofBits_def, Ideal.addf_def, Ideal.hostUnary_exp_def, Ideal.hostNegf_def,
    Ideal.negf_def]
  exact logistic_spelt _

/-- The candidate at `(r, j)`: the hyperbolic tangent of the pre-activation at column `j`. -/
theorem ref_cand (x0 x1 : (⟨S16384x512, .f32⟩ : BufTy).Contents (Elt Ideal)) (x2 : (⟨S1024x1024, .f32⟩ : BufTy).Contents (Elt Ideal))
    (x3 : (⟨S1024, .f32⟩ : BufTy).Contents (Elt Ideal)) (r : Fin 16384) (j : Fin 512) :
    val_main_v7 (F := Ideal) x0 x1 x2 x3 (ix2 r j)
      = Ideal.tanh (affine (fun k => x0 (ix2 r k)) (fun k => x1 (ix2 r k)) (fun k => x2 (ix2 (lo k) (lo j)))
          (fun k => x2 (ix2 (hi k) (lo j))) (x3 (ix1 (lo j)))) := by
  rw [val_main_v7_apply, val_main_v5_apply, idx5_eq, ref_lin, Ideal.hostUnary_tanh_def]

/-- the reference's new state is the specification's -/
theorem ref_hnew (x0 x1 : (⟨S16384x512, .f32⟩ : BufTy).Contents (Elt Ideal)) (x2 : (⟨S1024x1024, .f32⟩ : BufTy).Contents (Elt Ideal))
    (x3 : (⟨S1024, .f32⟩ : BufTy).Contents (Elt Ideal)) :
    val_main_v18 (F := Ideal) x0 x1 x2 x3 = hnewG x0 x1 x2 x3 := by
  funext i
  obtain ⟨r, j, rfl⟩ : ∃ (r : Fin 16384) (j : Fin 512), i = ix2 r j := ⟨i 0, i 1, eq_ix2 i⟩
  rw [val_main_v18_apply, val_main_v14_apply, val_main_v17_apply, val_main_v16_apply, val_main_v15_apply,
    val_main_cst_1_apply, ref_sigma, ref_cand]
  show _ = hnewRow (fun k => x0 (ix2 r k)) (fun k => x1 (ix2 r k)) (fun k c => x2 (ix2 (lo k) c))
    (fun k c => x2 (ix2 (hi k) c)) (fun c => x3 (ix1 c)) j
  unfold hnewRow gate
  simp only [Ideal.addf_def, Ideal.mulf_def, Ideal.subf_def, Ideal.ofBits_def]

/-! ## The output: the input row joined with the NEW state, against the second weight -/

/-- The second contraction's left index: row `r`, position `k` of the joined row. -/
theorem lidx20_eq (r : Fin 16384) (j : Fin 512) (k : Fin 1024) : lidx_main_v20 (ix2 r j) k = ix2 r k := by
  funext a
  match a with
  | ⟨0, _⟩ => rfl
  | ⟨1, _⟩ => rfl

/-- The second contraction's right index: row `k` of the second weight, column `j`. -/
theorem ridx20_eq (r : Fin 16384) (j : Fin 512) (k : Fin 1024) : ridx_main_v20 (ix2 r j) k = ix2 k j := by
  funext a
  match a with
  | ⟨0, _⟩ => rfl
  | ⟨1, _⟩ => rfl

/-- The second bias, broadcast over the rows, is read at the column. -/
theorem bias2_idx (r : Fin 16384) (j : Fin 512) : idx_main_v21 (idx_main_v22 (ix2 r j)) = ix1 j := by
  funext a
  match a with
  | ⟨0, _⟩ => rfl

/-- the reference's output is the specification's -/
theorem ref_out (x0 x1 : (⟨S16384x512, .f32⟩ : BufTy).Contents (Elt Ideal)) (x2 : (⟨S1024x1024, .f32⟩ : BufTy).Contents (Elt Ideal))
    (x3 : (⟨S1024, .f32⟩ : BufTy).Contents (Elt Ideal)) (x4 : (⟨S1024x512, .f32⟩ : BufTy).Contents (Elt Ideal))
    (x5 : (⟨S512, .f32⟩ : BufTy).Contents (Elt Ideal)) :
    val_main_v24 (F := Ideal) x0 x1 x2 x3 x4 x5 = outG x0 x1 x2 x3 x4 x5 := by
  funext i
  obtain ⟨r, j, rfl⟩ : ∃ (r : Fin 16384) (j : Fin 512), i = ix2 r j := ⟨i 0, i 1, eq_ix2 i⟩
  rw [val_main_v24_apply, val_main_v23_apply, val_main_v20_apply, val_main_v22_apply, val_main_v21_apply, bias2_idx,
    Ideal.addf_def, Ideal.hostUnary_tanh_def, sum_halves]
  show _ = outRow (fun k => x0 (ix2 r k)) (fun k => x1 (ix2 r k)) (fun k c => x2 (ix2 (lo k) c))
    (fun k c => x2 (ix2 (hi k) c)) (fun c => x3 (ix1 c)) (fun k j => x4 (ix2 (lo k) j)) (fun k j => x4 (ix2 (hi k) j))
    (fun j => x5 (ix1 j)) j
  unfold outRow affine
  refine congrArg Ideal.tanh (congrArg₂ (· + ·) (congrArg₂ (· + ·) (Finset.sum_congr rfl fun k _ => ?_)
    (Finset.sum_congr rfl fun k _ => ?_)) rfl)
  · -- the first half of the joined row is the input row
    rw [lidx20_eq, ridx20_eq]
    exact congrArg (· * x4 (ix2 (lo k) j)) (concat_lo x0 (val_main_v18 (F := Ideal) x0 x1 x2 x3) r k)
  · -- the second half of the joined row is the new state, which is the specification's
    rw [lidx20_eq, ridx20_eq]
    refine (congrArg (· * x4 (ix2 (hi k) j)) (concat_hi x0 (val_main_v18 (F := Ideal) x0 x1 x2 x3) r k)).trans ?_
    rw [ref_hnew]
    rfl

end Cert.ReferenceIdeal.RefValue
end
-- ==== Proof.KernelPay.lean ====
/-
  The kernel body's two payloads, read at one element, over the extended reals.

  For a block of 1024 rows the body forms the pre-activation  lin = x·W_upper + h·W_lower + b  (two matrix products into
  zero accumulators, added, plus the bias row broadcast down the rows), cuts it into its first and its last 512 columns,
  and mixes  h' = σ(lin_last)·h + (1 − σ(lin_last))·tanh(lin_first);  then it contracts x and h' with the two halves of
  the second weight and adds. Read at row p and one column, each matrix product into a zero accumulator is the plain sum
  over the 512 contracted positions of row times column (`matmulWide_apply`, `matmulNarrow_apply`: the contraction
  index has one axis, and the sum is re-indexed along it); a column slice shifts the column by its offset
  (`slice_lo_apply`, `slice_hi_apply`); the broadcast bias is the row's entry at that column (`bias_broadcast_apply`);
  a shape cast to the same shape and the narrowing of the format are the identity on extended reals; tanh and the
  logistic function act lane by lane. Hence the pre-activation at (p, c) is `affine` of row p of x and h with column c of
  the two weight halves and the bias at c (`preact_apply`), the new state at (p, q) is `hnewRow` of those rows at q
  (`pay3_row`), and the second contraction at (p, q) is row p of x against column q of the upper half plus row p of the
  new state against column q of the lower half (`pay4_row`).
-/
import proofs.«165214_j49134425866913_2_alg».proof.Proof.Gen.KernelIdeal.Skeleton
import proofs.«165214_j49134425866913_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section
open scoped BigOperators
namespace Cert.KernelIdeal.Pay
open Cert.KernelIdeal Cert.KernelIdeal.Gen Idealize.ShloMosaic Idealize.ShloMosaic.ValueIdx Cert.Dru

/-- The left operand's row coordinate at a contraction index is the output's row. -/
theorem matmulWide_lhs0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
/-- The left operand's column coordinate at a contraction index is that index. -/
theorem matmulWide_lhs1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- The right operand's row coordinate at a contraction index is that index. -/
theorem matmulWide_rhs0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- The right operand's column coordinate at a contraction index is the output's column. -/
theorem matmulWide_rhs1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- A matrix product into a zero accumulator, read at row `p`, column `c`: the sum over the 512 contracted positions
    of the products of the left row with the right column. -/
theorem matmulWide_apply (A : FVec Ideal S1024x512 .bf16) (B : FVec Ideal S512x1024 .bf16) (p : Fin 1024) (c : Fin 1024) :
    matmul (F := Ideal) dot_S1024x512_S512x1024_S1024x1024_1_0_0_1_n_n none A B (constant S1024x1024 .f32 0x00000000#32) (ix2 p c)
      = ∑ k : Fin 512, A (ix2 p k) * B (ix2 k c) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p c) ((contrEquiv1 dot_S1024x512_S512x1024_S1024x1024_1_0_0_1_n_n 512 rfl rfl).symm k) = ix2 p k := funext fun a => Fin.ext (by
    match a with
    | ⟨0, _⟩ => exact matmulWide_lhs0 _ _
    | ⟨1, _⟩ => exact (matmulWide_lhs1 _ _).trans hk)
  have er : dot_S1024x512_S512x1024_S1024x1024_1_0_0_1_n_n.rhsIdx (ix2 p c) ((contrEquiv1 dot_S1024x512_S512x1024_S1024x1024_1_0_0_1_n_n 512 rfl rfl).symm k) = ix2 k c := funext fun a => Fin.ext (by
    match a with
    | ⟨0, _⟩ => exact (matmulWide_rhs0 _ _).trans hk
    | ⟨1, _⟩ => exact matmulWide_rhs1 _ _)
  rw [el, er]

/-- The left operand's row coordinate at a contraction index is the output's row. -/
theorem matmulNarrow_lhs0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- The left operand's column coordinate at a contraction index is that index. -/
theorem matmulNarrow_lhs1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- The right operand's row coordinate at a contraction index is that index. -/
theorem matmulNarrow_rhs0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- The right operand's column coordinate at a contraction index is the output's column. -/
theorem matmulNarrow_rhs1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A matrix product into a zero accumulator, read at row `p`, column `c`: the sum over the 512 contracted positions
    of the products of the left row with the right column. -/
theorem matmulNarrow_apply (A : FVec Ideal S1024x512 .bf16) (B : FVec Ideal S512x512 .bf16) (p : Fin 1024) (c : Fin 512) :
    matmul (F := Ideal) dot_S1024x512_S512x512_S1024x512_1_0_0_1_n_n none A B (constant S1024x512 .f32 0x00000000#32) (ix2 p c)
      = ∑ k : Fin 512, A (ix2 p k) * B (ix2 k c) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p c) ((contrEquiv1 dot_S1024x512_S512x512_S1024x512_1_0_0_1_n_n 512 rfl rfl).symm k) = ix2 p k := funext fun a => Fin.ext (by
    match a with
    | ⟨0, _⟩ => exact matmulNarrow_lhs0 _ _
    | ⟨1, _⟩ => exact (matmulNarrow_lhs1 _ _).trans hk)
  have er : dot_S1024x512_S512x512_S1024x512_1_0_0_1_n_n.rhsIdx (ix2 p c) ((contrEquiv1 dot_S1024x512_S512x512_S1024x512_1_0_0_1_n_n 512 rfl rfl).symm k) = ix2 k c := funext fun a => Fin.ext (by
    match a with
    | ⟨0, _⟩ => exact (matmulNarrow_rhs0 _ _).trans hk
    | ⟨1, _⟩ => exact matmulNarrow_rhs1 _ _)
  rw [el, er]

/-- The bias row broadcast down the 1024 rows, read at row `p`, column `c`: the row's entry at column `c`. -/
theorem bias_broadcast_apply (b : FVec Ideal S1x1024 .f32) (p c : Fin 1024) :
    broadcastTo S1024x1024 b broadcasts_S1x1024_S1024x1024 (ix2 p c) = b (ix2 (0 : Fin 1) c) :=
  broadcastTo_apply b broadcasts_S1x1024_S1024x1024 (ix2 p c) (ix2 (0 : Fin 1) c) (fun a => match a with
    | ⟨0, _⟩ => by show 0 = if (1 : Nat) = 1 then 0 else p.val; rw [if_pos rfl]
    | ⟨1, _⟩ => by show c.val = if (1024 : Nat) = 1 then 0 else c.val; rw [if_neg (by decide)])

/-- The first 512 columns of a block of 1024 columns, read at row `p`, column `q`: the block at column `q`. -/
theorem slice_lo_apply (y : FVec Ideal S1024x1024 .f32) (p : Fin 1024) (q : Fin 512) :
    extractStridedSlice S1024x512 ![0, 0] y slices_S1024x1024_o0_0_S1024x512 (ix2 p q) = y (ix2 p (lo q)) :=
  extractStridedSlice_apply ![0, 0] y slices_S1024x1024_o0_0_S1024x512 (ix2 p q) (ix2 p (lo q)) (fun a => match a with
    | ⟨0, _⟩ => by show p.val = 0 + p.val; omega
    | ⟨1, _⟩ => by show q.val = 0 + q.val; omega)

/-- The last 512 columns of a block of 1024 columns, read at row `p`, column `q`: the block at column `512 + q`. -/
theorem slice_hi_apply (y : FVec Ideal S1024x1024 .f32) (p : Fin 1024) (q : Fin 512) :
    extractStridedSlice S1024x512 ![0, 512] y slices_S1024x1024_o0_512_S1024x512 (ix2 p q) = y (ix2 p (hi q)) :=
  extractStridedSlice_apply ![0, 512] y slices_S1024x1024_o0_512_S1024x512 (ix2 p q) (ix2 p (hi q)) (fun a => match a with
    | ⟨0, _⟩ => by show p.val = 0 + p.val; omega
    | ⟨1, _⟩ => by show 512 + q.val = 512 + q.val; rfl)

/-- The pre-activation — the two products into zero accumulators, added, plus the broadcast bias — read at row `p`,
    column `c`: the contraction of the two half rows with the two half columns plus the bias there. -/
theorem preact_apply (P0 P1 : FVec Ideal S1024x512 .f32) (P2 P3 : FVec Ideal S512x1024 .bf16) (P4 : FVec Ideal S1x1024 .f32)
    (p c : Fin 1024) :
    addf (addf
        (matmul (F := Ideal) dot_S1024x512_S512x1024_S1024x1024_1_0_0_1_n_n none (truncf .bf16 P0 bitsLt_bf16_f32) P2
          (constant S1024x1024 .f32 0x00000000#32))
        (matmul (F := Ideal) dot_S1024x512_S512x1024_S1024x1024_1_0_0_1_n_n none (truncf .bf16 P1 bitsLt_bf16_f32) P3
          (constant S1024x1024 .f32 0x00000000#32)))
      (broadcastTo S1024x1024 P4 broadcasts_S1x1024_S1024x1024) (ix2 p c)
      = affine (fun k => P0 (ix2 p k)) (fun k => P1 (ix2 p k)) (fun k => P2 (ix2 k c)) (fun k => P3 (ix2 k c))
          (P4 (ix2 (0 : Fin 1) c)) := by
  rw [addf_apply, addf_apply, matmulWide_apply, matmulWide_apply, bias_broadcast_apply]
  rfl

/-- The logistic function is applied lane by lane. -/
theorem logistic_apply {s : Shape} {φ : FTy} (x : FVec Ideal s φ) (i : s.Idx) : logistic x i = Ideal.logistic (x i) := rfl
/-- The hyperbolic tangent is applied lane by lane. -/
theorem tanh_apply {s : Shape} {φ : FTy} (x : FVec Ideal s φ) (i : s.Idx) : tanh x i = Ideal.tanh (x i) := rfl

/-- the new-state payload at row p, column q of the block -/
theorem pay3_row (P0 P1 : FVec Ideal S1024x512 .f32) (P2 P3 : FVec Ideal S512x1024 .bf16) (P4 : FVec Ideal S1x1024 .f32)
    (p : Fin 1024) (q : Fin 512) :
    k0_pay3 (F := Ideal) P0 P1 P2 P3 P4 (ix2 p q)
      = hnewRow (fun k => P0 (ix2 p k)) (fun k => P1 (ix2 p k)) (fun k c => P2 (ix2 k c)) (fun k c => P3 (ix2 k c))
          (fun c => P4 (ix2 (0 : Fin 1) c)) q := by
  unfold k0_pay3 k0_pay2
  simp only [shapeCast_self]
  rw [addf_apply, mulf_apply, mulf_apply, subf_apply, broadcast_apply, logistic_apply, tanh_apply, slice_hi_apply,
    slice_lo_apply, preact_apply, preact_apply]
  unfold hnewRow gate
  rfl

/-- the second contraction's payload at row p, column q of the block -/
theorem pay4_row (P0 P1 : FVec Ideal S1024x512 .f32) (P2 P3 : FVec Ideal S512x1024 .bf16) (P4 : FVec Ideal S1x1024 .f32)
    (P5 P6 : FVec Ideal S512x512 .bf16) (p : Fin 1024) (q : Fin 512) :
    k0_pay4 (F := Ideal) P0 P1 P2 P3 P4 P5 P6 (ix2 p q)
      = (∑ k : Fin 512, P0 (ix2 p k) * P5 (ix2 k q))
        + ∑ k : Fin 512, hnewRow (fun k => P0 (ix2 p k)) (fun k => P1 (ix2 p k)) (fun k c => P2 (ix2 k c)) (fun k c => P3 (ix2 k c))
            (fun c => P4 (ix2 (0 : Fin 1) c)) k * P6 (ix2 k q) := by
  unfold k0_pay4 k0_pay2
  simp only [shapeCast_self]
  rw [addf_apply, matmulNarrow_apply, matmulNarrow_apply]
  refine congrArg₂ (· + ·) (Finset.sum_congr rfl fun k _ => rfl) (Finset.sum_congr rfl fun k _ => ?_)
  rw [truncf_apply, pay3_row]

end Cert.KernelIdeal.Pay
end
-- ==== Proof.KernelValue.lean ====
/-
  The kernel's two result arrays as functions of the argument arrays.  The pallas_call walks 16 grid points; at point
  `t` it stages rows `1024·t … 1024·t + 1023` of the input and of the state, the two weights and the two bias rows whole
  (resident at block (0, 0)), computes one block of the new state and one block of the output, and writes them back to
  rows `1024·t …` of the two result arrays.  The weights reach the region through a change of float format, which is
  the identity on the extended reals, and each bias through a reshape `[n] → [1, n]`, whose one row is the vector.

  So: (1) each staged block, read at an element, is the argument array at the row `1024·t + p` (`rd0` … `rd5`);
  (2) the body's stored payloads at row `p`, column `q` of the block are the row functions `hnewRow` / `outRow` of the
  block's rows (the payload module), hence of the arrays' rows `1024·t + p` — which is what block `t` of the
  specification's arrays holds (`flushed7_eq`, `flushed6_eq`); (3) the 16 blocks tile the 16384 rows, row `r` lying in
  the block of point `r / 1024` (`cover6`, `cover7`); therefore both arrays end at the specification (`final6`,
  `final7`, `run`).
-/
import proofs.«165214_j49134425866913_2_alg».proof.Proof.Gen.KernelIdeal.Value
import proofs.«165214_j49134425866913_2_alg».proof.Proof.Spec
import proofs.«165214_j49134425866913_2_alg».proof.Proof.KernelPay
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.Blocks

open Cert.KernelIdeal Cert.KernelIdeal.Gen Idealize.ShloMosaic Idealize.ShloMosaic.TcCoe Idealize.SL.Sem
open Idealize.ShloMosaic.StableHlo Idealize.ShloMosaic.ValueIdx Cert.Dru
open Idealize.ShloMosaic.Pipeline (Dat)

variable (m : (ℓ : Loc nD τ sig) → Buf (Elt Ideal) ℓ) (ρ : Dev nD → PrngReg)

/-! ## The arrays the host prepares for the region -/

/-- The first weight reaches the region through a change of float format: the same extended reals. -/
theorem V_v0 (c : Dev nD) : @Eq (S1024x1024.Idx → EReal) (V m c main_v0) (m ((c : Thread nD τ).loc main_arg2)) := by
  dsimp only [Gen.V, Gen.hostOps0]; after_results; rfl

/-- The second weight likewise. -/
theorem V_v1 (c : Dev nD) : @Eq (S1024x512.Idx → EReal) (V m c main_v1) (m ((c : Thread nD τ).loc main_arg4)) := by
  dsimp only [Gen.V, Gen.hostOps0]; after_results; rfl

/-- The first bias reaches the region as its one-row reshape. -/
theorem V_v2 (c : Dev nD) : (V m c main_v2 : S1x1024.Idx → Ideal .f32) = shapeCast S1x1024 (m ((c : Thread nD τ).loc main_arg3)) shapeCasts_S1024_S1x1024 := by
  dsimp only [Gen.V, Gen.hostOps0]; after_results; rfl

/-- The second bias likewise. -/
theorem V_v3 (c : Dev nD) : (V m c main_v3 : S1x512.Idx → Ideal .f32) = shapeCast S1x512 (m ((c : Thread nD τ).loc main_arg5)) shapeCasts_S512_S1x512 := by
  dsimp only [Gen.V, Gen.hostOps0]; after_results; rfl

/-- The zero offsets of a whole-buffer access. -/
theorem hz : (![0, 0] : Fin 2 → Nat) = fun _ => 0 := funext fun a => by fin_cases a <;> rfl

/-- The printed index maps over the 16 grid points: the row-blocked windows sit at block row `t`, the resident ones at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ t.val < 16 :=
  (by decide +kernel : ∀ t : Fin grid0.N, _)

/-- Row `p` of block `t` is row `1024·t + p` of the array. -/
def row (t : Fin cfg0.N) (p : Fin 1024) : Fin 16384 := ⟨t.val * 1024 + p.val, by
  have := (idx_facts t).2.2.2.2.2.2.2.2.2.2.2.2.2.2.2.2; omega⟩

/-! ## Each staged block read at an element -/

/-- The input's block `t` at `(p, k)` is the input at row `1024·t + p`, column `k`. -/
theorem rd0 (c : Dev nD) (t : Fin cfg0.N) (p : Fin 1024) (k : Fin 512) :
    View.ld (iblk m c 0 t) r0_0 (ix2 p k) = V m c main_arg0 (ix2 (row t p) k) := by
  show V m c main_arg0 (((cfg0.win 0).blk t).view.emb (r0_0.emb (ix2 p k))) = _
  refine congrArg (V m c main_arg0) ?_
  obtain ⟨e00, e01, -⟩ := idx_facts t
  funext a; apply Fin.ext
  match a with
  | ⟨0, _⟩ => show win0_0.index t (0 : Fin 2) * 1024 + 1 * (0 + 1 * p.val) = t.val * 1024 + p.val; omega
  | ⟨1, _⟩ => show win0_0.index t (1 : Fin 2) * 512 + 1 * (0 + 1 * k.val) = k.val; omega

/-- The first weight's upper half, loaded from the resident block, at `(k, j)` is the weight at row `k`. -/
theorem rd2lo (c : Dev nD) (t : Fin cfg0.N) (k : Fin 512) (j : Fin 1024) :
    View.ld (iblk m c 2 t) r0_1 (ix2 k j) = m ((c : Thread nD τ).loc main_arg2) (ix2 (lo k) j) := by
  refine Eq.trans ?_ (congrFun (V_v0 m c) (ix2 (lo k) j))
  show V m c main_v0 (((cfg0.win 2).blk t).view.emb (r0_1.emb (ix2 k j))) = _
  refine congrArg (V m c main_v0) ?_
  obtain ⟨-, -, -, -, e20, e21, -⟩ := idx_facts t
  funext a; apply Fin.ext
  match a with
  | ⟨0, _⟩ => show win0_2.index t (0 : Fin 2) * 1024 + 1 * (0 + 1 * k.val) = k.val; omega
  | ⟨1, _⟩ => show win0_2.index t (1 : Fin 2) * 1024 + 1 * (0 + 1 * j.val) = j.val; omega

/-- The first bias' staged row at column `j` is the bias at `j`. -/
theorem rd3 (c : Dev nD) (t : Fin cfg0.N) (j : Fin 1024) :
    View.ld (iblk m c 3 t) r0_3 (ix2 (0 : Fin 1) j) = m ((c : Thread nD τ).loc main_arg3) (ix1 j) := by
  refine Eq.trans ?_ ((congrFun (V_v2 m c) (ix2 (0 : Fin 1) j)).trans
    (shapeCast_a_1a_apply (m ((c : Thread nD τ).loc main_arg3)) shapeCasts_S1024_S1x1024 0 j))
  show V m c main_v2 (((cfg0.win 3).blk t).view.emb (r0_3.emb (ix2 (0 : Fin 1) j))) = _
  refine congrArg (V m c main_v2) ?_
  obtain ⟨-, -, -, -, -, -, e30, e31, -⟩ := idx_facts t
  funext a; apply Fin.ext
  match a with
  | ⟨0, _⟩ => show win0_3.index t (0 : Fin 2) * 1 + 1 * (0 + 1 * 0) = 0; omega
  | ⟨1, _⟩ => show win0_3.index t (1 : Fin 2) * 1024 + 1 * (0 + 1 * j.val) = j.val; omega

/-- Element `(p, q)` of the new state's block `t` sits at row `1024·t + p`, column `q` of its array. -/
theorem emb7 (t : Fin cfg0.N) (p : Fin 1024) (q : Fin 512) :
    ((cfg0.win 7).blk t).view.emb (ix2 p q) = ix2 (row t p) q := by
  obtain ⟨-, -, -, -, -, -, -, -, -, -, -, -, -, -, e70, e71, -⟩ := idx_facts t
  funext a; apply Fin.ext
  match a with
  | ⟨0, _⟩ => show win0_7.index t (0 : Fin 2) * 1024 + 1 * p.val = t.val * 1024 + p.val; omega
  | ⟨1, _⟩ => show win0_7.index t (1 : Fin 2) * 512 + 1 * q.val = q.val; omega

/-- The state's block `t` at `(p, k)` is the state at row `1024·t + p`, column `k`. -/
theorem rd1 (c : Dev nD) (t : Fin cfg0.N) (p : Fin 1024) (k : Fin 512) :
    View.ld (iblk m c 1 t) r0_0 (ix2 p k) = V m c main_arg1 (ix2 (row t p) k) := by
  show V m c main_arg1 (((cfg0.win 1).blk t).view.emb (r0_0.emb (ix2 p k))) = _
  refine congrArg (V m c main_arg1) ?_
  obtain ⟨-, -, e10, e11, -⟩ := idx_facts t
  funext a; apply Fin.ext
  match a with
  | ⟨0, _⟩ => show win0_1.index t (0 : Fin 2) * 1024 + 1 * (0 + 1 * p.val) = t.val * 1024 + p.val; omega
  | ⟨1, _⟩ => show win0_1.index t (1 : Fin 2) * 512 + 1 * (0 + 1 * k.val) = k.val; omega

/-- The first weight's lower half at `(k, j)` is the weight at row `512 + k`. -/
theorem rd2hi (c : Dev nD) (t : Fin cfg0.N) (k : Fin 512) (j : Fin 1024) :
    View.ld (iblk m c 2 t) r0_2 (ix2 k j) = m ((c : Thread nD τ).loc main_arg2) (ix2 (hi k) j) := by
  refine Eq.trans ?_ (congrFun (V_v0 m c) (ix2 (hi k) j))
  show V m c main_v0 (((cfg0.win 2).blk t).view.emb (r0_2.emb (ix2 k j))) = _
  refine congrArg (V m c main_v0) ?_
  obtain ⟨-, -, -, -, e20, e21, -⟩ := idx_facts t
  funext a; apply Fin.ext
  match a with
  | ⟨0, _⟩ => show win0_2.index t (0 : Fin 2) * 1024 + 1 * (512 + 1 * k.val) = 512 + k.val; omega
  | ⟨1, _⟩ => show win0_2.index t (1 : Fin 2) * 1024 + 1 * (0 + 1 * j.val) = j.val; omega

/-- The second weight's upper half at `(k, j)` is the weight at row `k`. -/
theorem rd4lo (c : Dev nD) (t : Fin cfg0.N) (k : Fin 512) (j : Fin 512) :
    View.ld (iblk m c 4 t) r0_4 (ix2 k j) = m ((c : Thread nD τ).loc main_arg4) (ix2 (lo k) j) := by
  refine Eq.trans ?_ (congrFun (V_v1 m c) (ix2 (lo k) j))
  show V m c main_v1 (((cfg0.win 4).blk t).view.emb (r0_4.emb (ix2 k j))) = _
  refine congrArg (V m c main_v1) ?_
  obtain ⟨-, -, -, -, -, -, -, -, e40, e41, -⟩ := idx_facts t
  funext a; apply Fin.ext
  match a with
  | ⟨0, _⟩ => show win0_4.index t (0 : Fin 2) * 1024 + 1 * (0 + 1 * k.val) = k.val; omega
  | ⟨1, _⟩ => show win0_4.index t (1 : Fin 2) * 512 + 1 * (0 + 1 * j.val) = j.val; omega

/-- The second weight's lower half at `(k, j)` is the weight at row `512 + k`. -/
theorem rd4hi (c : Dev nD) (t : Fin cfg0.N) (k : Fin 512) (j : Fin 512) :
    View.ld (iblk m c 4 t) r0_5 (ix2 k j) = m ((c : Thread nD τ).loc main_arg4) (ix2 (hi k) j) := by
  refine Eq.trans ?_ (congrFun (V_v1 m c) (ix2 (hi k) j))
  show V m c main_v1 (((cfg0.win 4).blk t).view.emb (r0_5.emb (ix2 k j))) = _
  refine congrArg (V m c main_v1) ?_
  obtain ⟨-, -, -, -, -, -, -, -, e40, e41, -⟩ := idx_facts t
  funext a; apply Fin.ext
  match a with
  | ⟨0, _⟩ => show win0_4.index t (0 : Fin 2) * 1024 + 1 * (512 + 1 * k.val) = 512 + k.val; omega
  | ⟨1, _⟩ => show win0_4.index t (1 : Fin 2) * 512 + 1 * (0 + 1 * j.val) = j.val; omega

/-- The second bias' staged row at column `j` is the bias at `j`. -/
theorem rd5 (c : Dev nD) (t : Fin cfg0.N) (j : Fin 512) :
    View.ld (iblk m c 5 t) r0_6 (ix2 (0 : Fin 1) j) = m ((c : Thread nD τ).loc main_arg5) (ix1 j) := by
  refine Eq.trans ?_ ((congrFun (V_v3 m c) (ix2 (0 : Fin 1) j)).trans
    (shapeCast_a_1a_apply (m ((c : Thread nD τ).loc main_arg5)) shapeCasts_S512_S1x512 0 j))
  show V m c main_v3 (((cfg0.win 5).blk t).view.emb (r0_6.emb (ix2 (0 : Fin 1) j))) = _
  refine congrArg (V m c main_v3) ?_
  obtain ⟨-, -, -, -, -, -, -, -, -, -, e50, e51, -⟩ := idx_facts t
  funext a; apply Fin.ext
  match a with
  | ⟨0, _⟩ => show win0_5.index t (0 : Fin 2) * 1 + 1 * (0 + 1 * 0) = 0; omega
  | ⟨1, _⟩ => show win0_5.index t (1 : Fin 2) * 512 + 1 * (0 + 1 * j.val) = j.val; omega

/-- Element `(p, q)` of the output's block `t` sits at row `1024·t + p`, column `q` of its array. -/
theorem emb6 (t : Fin cfg0.N) (p : Fin 1024) (q : Fin 512) :
    ((cfg0.win 6).blk t).view.emb (ix2 p q) = ix2 (row t p) q := by
  obtain ⟨-, -, -, -, -, -, -, -, -, -, -, -, e60, e61, -⟩ := idx_facts t
  funext a; apply Fin.ext
  match a with
  | ⟨0, _⟩ => show win0_6.index t (0 : Fin 2) * 1024 + 1 * p.val = t.val * 1024 + p.val; omega
  | ⟨1, _⟩ => show win0_6.index t (1 : Fin 2) * 512 + 1 * q.val = q.val; omega

/-! ## What each point writes back -/

/-- The row functions depend only on the values of their arguments. -/
theorem hnewRow_congr {xr xr' hr hr' : Fin 512 → EReal} {wlo wlo' whi whi' : Fin 512 → Fin 1024 → EReal} {b b' : Fin 1024 → EReal}
    (j : Fin 512) (h1 : ∀ k, xr k = xr' k) (h2 : ∀ k, hr k = hr' k) (h3 : ∀ k c, wlo k c = wlo' k c)
    (h4 : ∀ k c, whi k c = whi' k c) (h5 : ∀ c, b c = b' c) :
    hnewRow xr hr wlo whi b j = hnewRow xr' hr' wlo' whi' b' j := by
  obtain rfl : xr = xr' := funext h1
  obtain rfl : hr = hr' := funext h2
  obtain rfl : wlo = wlo' := funext fun k => funext (h3 k)
  obtain rfl : whi = whi' := funext fun k => funext (h4 k)
  obtain rfl : b = b' := funext h5
  rfl

/-- The same for the output's row function. -/
theorem outRow_congr {xr xr' hr hr' : Fin 512 → EReal} {wlo wlo' whi whi' : Fin 512 → Fin 1024 → EReal} {b b' : Fin 1024 → EReal}
    {ulo ulo' uhi uhi' : Fin 512 → Fin 512 → EReal} {d d' : Fin 512 → EReal}
    (j : Fin 512) (h1 : ∀ k, xr k = xr' k) (h2 : ∀ k, hr k = hr' k) (h3 : ∀ k c, wlo k c = wlo' k c)
    (h4 : ∀ k c, whi k c = whi' k c) (h5 : ∀ c, b c = b' c) (h6 : ∀ k c, ulo k c = ulo' k c) (h7 : ∀ k c, uhi k c = uhi' k c)
    (h8 : ∀ c, d c = d' c) :
    outRow xr hr wlo whi b ulo uhi d j = outRow xr' hr' wlo' whi' b' ulo' uhi' d' j := by
  obtain rfl : xr = xr' := funext h1
  obtain rfl : hr = hr' := funext h2
  obtain rfl : wlo = wlo' := funext fun k => funext (h3 k)
  obtain rfl : whi = whi' := funext fun k => funext (h4 k)
  obtain rfl : b = b' := funext h5
  obtain rfl : ulo = ulo' := funext fun k => funext (h6 k)
  obtain rfl : uhi = uhi' := funext fun k => funext (h7 k)
  obtain rfl : d = d' := funext h8
  rfl

/-- WHAT POINT `t` WRITES BACK to the new state's array is block `t` of the specification's array. -/
theorem flushed7_eq (c : Dev nD) (t : Fin cfg0.N) :
    (dats m 0 c).flushed 7 t = ((cfg0.win 7).blk t).view.read (Elt Ideal)
      (hnewG (m ((c : Thread nD τ).loc main_arg0)) (m ((c : Thread nD τ).loc main_arg1)) (m ((c : Thread nD τ).loc main_arg2))
        (m ((c : Thread nD τ).loc main_arg3))) := by
  rw [Value.flushed7]
  unfold out0_7
  rw [View.canon_unit_zero hz]
  funext y
  obtain ⟨p, q, rfl⟩ : ∃ (p : Fin 1024) (q : Fin 512), y = ix2 p q := ⟨y 0, y 1, eq_ix2 y⟩
  show k0_pay3 (F := Ideal) (View.ld (iblk m c 0 t) r0_0) (View.ld (iblk m c 1 t) r0_0) (View.ld (iblk m c 2 t) r0_1)
        (View.ld (iblk m c 2 t) r0_2) (View.ld (iblk m c 3 t) r0_3) (ix2 p q)
      = hnewG (m ((c : Thread nD τ).loc main_arg0)) (m ((c : Thread nD τ).loc main_arg1)) (m ((c : Thread nD τ).loc main_arg2))
        (m ((c : Thread nD τ).loc main_arg3)) (((cfg0.win 7).blk t).view.emb (ix2 p q))
  refine (Pay.pay3_row (View.ld (iblk m c 0 t) r0_0) (View.ld (iblk m c 1 t) r0_0) (View.ld (iblk m c 2 t) r0_1)
        (View.ld (iblk m c 2 t) r0_2) (View.ld (iblk m c 3 t) r0_3) p q).trans ?_
  rw [emb7]
  show _ = hnewRow (fun k => m ((c : Thread nD τ).loc main_arg0) (ix2 (row t p) k))
    (fun k => m ((c : Thread nD τ).loc main_arg1) (ix2 (row t p) k))
    (fun k j => m ((c : Thread nD τ).loc main_arg2) (ix2 (lo k) j)) (fun k j => m ((c : Thread nD τ).loc main_arg2) (ix2 (hi k) j))
    (fun j => m ((c : Thread nD τ).loc main_arg3) (ix1 j)) q
  exact hnewRow_congr q (fun k => (rd0 m c t p k).trans (congrFun (V_main_arg0 m c) _))
    (fun k => (rd1 m c t p k).trans (congrFun (V_main_arg1 m c) _))
    (fun k j => rd2lo m c t k j) (fun k j => rd2hi m c t k j) (fun j => rd3 m c t j)

/-- The output block's payload at row `p`, column `q`: the second contraction plus the second bias' row, under the
    hyperbolic tangent. -/
theorem out_block (P0 P1 : FVec Ideal S1024x512 .f32) (P2 P3 : FVec Ideal S512x1024 .bf16) (P4 : FVec Ideal S1x1024 .f32)
    (P5 P6 : FVec Ideal S512x512 .bf16) (P7 : FVec Ideal S1x512 .f32) (p : Fin 1024) (q : Fin 512) :
    k0_pay1 (F := Ideal) (k0_pay4 P0 P1 P2 P3 P4 P5 P6) (k0_pay5 P7) (ix2 p q)
      = outRow (fun k => P0 (ix2 p k)) (fun k => P1 (ix2 p k)) (fun k c => P2 (ix2 k c)) (fun k c => P3 (ix2 k c))
          (fun c => P4 (ix2 (0 : Fin 1) c)) (fun k j => P5 (ix2 k j)) (fun k j => P6 (ix2 k j))
          (fun j => P7 (ix2 (0 : Fin 1) j)) q := by
  show Ideal.tanh (k0_pay4 (F := Ideal) P0 P1 P2 P3 P4 P5 P6 (ix2 p q)
      + broadcastTo S1024x512 (shapeCast S1x512 P7 shapeCasts_S1x512_S1x512) broadcasts_S1x512_S1024x512 (ix2 p q)) = _
  refine congrArg Ideal.tanh ?_
  refine (congrArg₂ (· + ·) (Pay.pay4_row P0 P1 P2 P3 P4 P5 P6 p q)
    ((broadcastTo_1b_ab_apply (shapeCast S1x512 P7 shapeCasts_S1x512_S1x512) broadcasts_S1x512_S1024x512 p q).trans
      (congrFun (shapeCast_self P7 shapeCasts_S1x512_S1x512) (ix2 (0 : Fin 1) q)))).trans ?_
  rfl

/-- WHAT POINT `t` WRITES BACK to the output's array is block `t` of the specification's array. -/
theorem flushed6_eq (c : Dev nD) (t : Fin cfg0.N) :
    (dats m 0 c).flushed 6 t = ((cfg0.win 6).blk t).view.read (Elt Ideal)
      (outG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6]
  unfold out0_6
  rw [View.canon_unit_zero hz]
  funext y
  obtain ⟨p, q, rfl⟩ : ∃ (p : Fin 1024) (q : Fin 512), y = ix2 p q := ⟨y 0, y 1, eq_ix2 y⟩
  show k0_pay1 (F := Ideal) (k0_pay4 (View.ld (iblk m c 0 t) r0_0) (View.ld (iblk m c 1 t) r0_0) (View.ld (iblk m c 2 t) r0_1)
        (View.ld (iblk m c 2 t) r0_2) (View.ld (iblk m c 3 t) r0_3) (View.ld (iblk m c 4 t) r0_4) (View.ld (iblk m c 4 t) r0_5))
        (k0_pay5 (View.ld (iblk m c 5 t) r0_6)) (ix2 p q)
      = outG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 6).blk t).view.emb (ix2 p q))
  refine (out_block (View.ld (iblk m c 0 t) r0_0) (View.ld (iblk m c 1 t) r0_0) (View.ld (iblk m c 2 t) r0_1)
        (View.ld (iblk m c 2 t) r0_2) (View.ld (iblk m c 3 t) r0_3) (View.ld (iblk m c 4 t) r0_4) (View.ld (iblk m c 4 t) r0_5)
        (View.ld (iblk m c 5 t) r0_6) p q).trans ?_
  rw [emb6]
  show _ = outRow (fun k => m ((c : Thread nD τ).loc main_arg0) (ix2 (row t p) k))
    (fun k => m ((c : Thread nD τ).loc main_arg1) (ix2 (row t p) k))
    (fun k j => m ((c : Thread nD τ).loc main_arg2) (ix2 (lo k) j)) (fun k j => m ((c : Thread nD τ).loc main_arg2) (ix2 (hi k) j))
    (fun j => m ((c : Thread nD τ).loc main_arg3) (ix1 j))
    (fun k j => m ((c : Thread nD τ).loc main_arg4) (ix2 (lo k) j)) (fun k j => m ((c : Thread nD τ).loc main_arg4) (ix2 (hi k) j))
    (fun j => m ((c : Thread nD τ).loc main_arg5) (ix1 j)) q
  exact outRow_congr q (fun k => (rd0 m c t p k).trans (congrFun (V_main_arg0 m c) _))
    (fun k => (rd1 m c t p k).trans (congrFun (V_main_arg1 m c) _))
    (fun k j => rd2lo m c t k j) (fun k j => rd2hi m c t k j) (fun j => rd3 m c t j)
    (fun k j => rd4lo m c t k j) (fun k j => rd4hi m c t k j) (fun j => rd5 m c t j)

/-! ## The blocks tile the two result arrays -/

/-- An index of the output's array is in point `t`'s block iff each coordinate is in the block's range on its axis. -/
theorem mem_blk6 (t : Fin cfg0.N) (i : S16384x512.Idx) :
    i ∈ ((cfg0.win 6).blk t).view.set ↔ ∀ a : Fin 2, win0_6.index t a * S1024x512.size a ≤ (i a).val ∧ (i a).val < win0_6.index t a * S1024x512.size a + S1024x512.size a := by
  show i ∈ ((View.whole main_v4_0).slice (win0_6.rect t)).set ↔ _
  rw [View.set_slice_whole, Rect.mem_set_unit]
  exact Iff.rfl

/-- The same for the new state's array. -/
theorem mem_blk7 (t : Fin cfg0.N) (i : S16384x512.Idx) :
    i ∈ ((cfg0.win 7).blk t).view.set ↔ ∀ a : Fin 2, win0_7.index t a * S1024x512.size a ≤ (i a).val ∧ (i a).val < win0_7.index t a * S1024x512.size a + S1024x512.size a := by
  show i ∈ ((View.whole main_v4_1).slice (win0_7.rect t)).set ↔ _
  rw [View.set_slice_whole, Rect.mem_set_unit]
  exact Iff.rfl

/-- The point whose block holds row `r`: `r / 1024`. -/
def pointOf (i : S16384x512.Idx) : Fin cfg0.N := ⟨(i 0).val / 1024, by
  have hi0 : (i 0).val < 16384 := (i 0).isLt
  have hN : grid0.N = 16 := N_0
  show (i 0).val / 1024 < grid0.N
  omega⟩

/-- Every index of the output's array is in the block of the point `row / 1024`. -/
theorem cover6 (i : S16384x512.Idx) :
    ∃ t : Fin cfg0.N, (cfg0.win 6).flush t = true ∧ i ∈ ((cfg0.win 6).blk t).view.set := by
  have hi0 : (i 0).val < 16384 := (i 0).isLt
  have hi1 : (i 1).val < 512 := (i 1).isLt
  refine ⟨pointOf i, flush0_6 _, ?_⟩
  rw [mem_blk6]
  obtain ⟨-, -, -, -, -, -, -, -, -, -, -, -, e60, e61, -⟩ := idx_facts (pointOf i)
  have ht : (pointOf i).val = (i 0).val / 1024 := rfl
  intro a
  match a with
  | ⟨0, _⟩ => show win0_6.index (pointOf i) (0 : Fin 2) * 1024 ≤ (i 0).val ∧ (i 0).val < win0_6.index (pointOf i) (0 : Fin 2) * 1024 + 1024; omega
  | ⟨1, _⟩ => show win0_6.index (pointOf i) (1 : Fin 2) * 512 ≤ (i 1).val ∧ (i 1).val < win0_6.index (pointOf i) (1 : Fin 2) * 512 + 512; omega

/-- Every index of the new state's array is in the block of the point `row / 1024`. -/
theorem cover7 (i : S16384x512.Idx) :
    ∃ t : Fin cfg0.N, (cfg0.win 7).flush t = true ∧ i ∈ ((cfg0.win 7).blk t).view.set := by
  have hi0 : (i 0).val < 16384 := (i 0).isLt
  have hi1 : (i 1).val < 512 := (i 1).isLt
  refine ⟨pointOf i, flush0_7 _, ?_⟩
  rw [mem_blk7]
  obtain ⟨-, -, -, -, -, -, -, -, -, -, -, -, -, -, e70, e71, -⟩ := idx_facts (pointOf i)
  have ht : (pointOf i).val = (i 0).val / 1024 := rfl
  intro a
  match a with
  | ⟨0, _⟩ => show win0_7.index (pointOf i) (0 : Fin 2) * 1024 ≤ (i 0).val ∧ (i 0).val < win0_7.index (pointOf i) (0 : Fin 2) * 1024 + 1024; omega
  | ⟨1, _⟩ => show win0_7.index (pointOf i) (1 : Fin 2) * 512 ≤ (i 1).val ∧ (i 1).val < win0_7.index (pointOf i) (1 : Fin 2) * 512 + 512; omega

/-- THE OUTPUT ARRAY after the run is the specification's. -/
theorem final6 (c : Dev nD) : (dats m 0 c).arrAt 6 cfg0.N
    = outG (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6 _ (fun t _ => flushed6_eq m c t) cover6

/-- THE NEW STATE'S ARRAY after the run is the specification's. -/
theorem final7 (c : Dev nD) : (dats m 0 c).arrAt 7 cfg0.N
    = hnewG (m ((c : Thread nD τ).loc main_arg0)) (m ((c : Thread nD τ).loc main_arg1)) (m ((c : Thread nD τ).loc main_arg2))
        (m ((c : Thread nD τ).loc main_arg3)) :=
  (dats m 0 c).arrAt_eq_of_cover 7 _ (fun t _ => flushed7_eq m c t) cover7

/-- The kernel's run with both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v4_0)
        = outG (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_v4_1)
        = hnewG (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final6 m c), (h c).2.1.trans (final7 m c), (h c).2.2⟩)
    (Value.run_blocks m ρ)

end Cert.KernelIdeal.Blocks

end
-- ==== Proof.lean ====
/-
  The certificate of one recurrent cell: a Pallas kernel that computes, for 16384 rows at once,

    lin   = x·W[0:512, :] + h·W[512:1024, :] + b                     (two contractions over 512, no concatenation)
    h'    = σ(lin[:, 512:1024])·h + (1 − σ(lin[:, 512:1024]))·tanh(lin[:, 0:512])
    out   = tanh( x·U[0:512, :] + h'·U[512:1024, :] + d )

  in blocks of 1024 rows, against the plain reference `[x | h]·W + b`, the same gate, `tanh([x | h']·U + d)`, with the
  logistic function spelt `1 / (1 + e^(-l))`.  On the extended reals the two agree element by element: the changes of
  float format on the way into the contractions are the identity, a contraction of the joined row `[x | h]` over 1024
  positions is the sum of the contractions of its two halves (a finite sum splits, with no finiteness hypothesis), the
  kernel's logistic operation is by definition `1 / (1 + e^(-l))`, and the 16 row blocks tile the arrays.  The
  precondition is never opened.

  `Proof/Spec.lean` states the cell for one row; `Proof/RefValue.lean` shows the reference's two results are the
  specification's arrays; `Proof/KernelPay.lean` reads the kernel body's payloads at one element of a block;
  `Proof/KernelValue.lean` carries the blocks to the whole arrays.  The three frames are the generated ones (the
  reference's is its generated run with the results dropped); the idealization rewrote nothing, so `preserves` is
  trivial.
-/
import proofs.«165214_j49134425866913_2_alg».proof.Defs
import proofs.«165214_j49134425866913_2_alg».proof.Proof.Gen.Kernel
import proofs.«165214_j49134425866913_2_alg».proof.Proof.Gen.Kernel.Skeleton
import proofs.«165214_j49134425866913_2_alg».proof.Proof.Gen.Kernel.Launch
import proofs.«165214_j49134425866913_2_alg».proof.Proof.Gen.Kernel.Points
import proofs.«165214_j49134425866913_2_alg».proof.Proof.Gen.Kernel.Frame
import proofs.«165214_j49134425866913_2_alg».proof.Proof.Gen.KernelIdeal
import proofs.«165214_j49134425866913_2_alg».proof.Proof.Gen.KernelIdeal.Skeleton
import proofs.«165214_j49134425866913_2_alg».proof.Proof.Gen.KernelIdeal.Launch
import proofs.«165214_j49134425866913_2_alg».proof.Proof.Gen.KernelIdeal.Points
import proofs.«165214_j49134425866913_2_alg».proof.Proof.Gen.KernelIdeal.Frame
import proofs.«165214_j49134425866913_2_alg».proof.Proof.Gen.ReferenceIdeal
import proofs.«165214_j49134425866913_2_alg».proof.Proof.Gen.Pre_finite_inputs
import proofs.«165214_j49134425866913_2_alg».proof.Proof.Gen.KernelIdeal.Value
import proofs.«165214_j49134425866913_2_alg».proof.Proof.Gen.ReferenceIdeal.Run
import proofs.«165214_j49134425866913_2_alg».proof.Proof.Gen.ReferenceIdeal.Read
import proofs.«165214_j49134425866913_2_alg».proof.Proof.Spec
import proofs.«165214_j49134425866913_2_alg».proof.Proof.RefValue
import proofs.«165214_j49134425866913_2_alg».proof.Proof.KernelPay
import proofs.«165214_j49134425866913_2_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs end with the specification's two arrays of arguments that agree: the kernel by its blocks
    (`Blocks.run`), the reference by its run read one operation at a time (`ref_out`, `ref_hnew`). -/
theorem algebraic : Cert.algebraic_KernelIdeal_ReferenceIdeal := by
  intro m ρ m' ρ' _ hagree
  refine ⟨_, _, Cert.KernelIdeal.Blocks.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, Cert.ReferenceIdeal.RefValue.ref_out,
      (hagree c).1, (hagree c).2.1, (hagree c).2.2.1, (hagree c).2.2.2.1, (hagree c).2.2.2.2.1, (hagree c).2.2.2.2.2]
  · rw [Cert.ReferenceIdeal.Read.val_main_v18_eq, Cert.ReferenceIdeal.RefValue.ref_hnew,
      (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
